-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel

variable [Facts]

def fn {F : FTy → Type} [FloatOps F] (main_arg0 : FVec F S131072x256 .f32) (main_arg1 : FVec F S131072x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  main_v8
-- ==== Kernel.lean ====
abbrev S131072x256 : Shape := ⟨2, ![131072, 256]⟩
abbrev S131072 : Shape := ⟨1, ![131072]⟩
abbrev S8192x256 : Shape := ⟨2, ![8192, 256]⟩
abbrev S8192 : Shape := ⟨1, ![8192]⟩
abbrev S131072x1 : Shape := ⟨2, ![131072, 1]⟩

abbrev nBuf : Space → Nat
  | .hbm => 4
  | .vmem => 6
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S131072, .f32⟩
  | .hbm, ⟨3, _⟩ => ⟨S131072x1, .f32⟩
  | .local _ .vmem, ⟨0, _⟩ => ⟨S8192x256, .f32⟩
  | .local _ .vmem, ⟨1, _⟩ => ⟨S8192x256, .f32⟩
  | .local _ .vmem, ⟨2, _⟩ => ⟨S8192x256, .f32⟩
  | .local _ .vmem, ⟨3, _⟩ => ⟨S8192x256, .f32⟩
  | .local _ .vmem, ⟨4, _⟩ => ⟨S8192, .f32⟩
  | .local _ .vmem, ⟨5, _⟩ => ⟨S8192, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8192x256_S8192x256_0_0 : ∀ a, (![0, 0] : Fin 2 → Nat) a + S8192x256.size a ≤ S8192x256.size a
  h_S8192x256 : 0 < S8192x256.numel
  reduces_S8192x256_S8192 : S8192x256.Reduces [1] S8192
  inb_S8192_S8192_0 : ∀ a, (![0] : Fin 1 → Nat) a + S8192.size a ≤ S8192.size a
  h_S8192 : 0 < S8192.numel
  shapeCasts_S131072_S131072x1 : S131072.ShapeCasts S131072x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S131072x256.size a
  hwx0_0 : ∀ i : grid0.Coords, EltTy.bits .f32 = 32 ∨ (Rect.block (s := S131072x256) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S131072x256.size a
  hwx0_1 : ∀ i : grid0.Coords, EltTy.bits .f32 = 32 ∨ (Rect.block (s := S131072x256) S8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192.size a ≤ S131072.size a
  hwx0_2 : ∀ i : grid0.Coords, EltTy.bits .f32 = 32 ∨ (Rect.block (s := S131072) S8192.size (cc0_transform_2 i) (hinb0_2 i)).WholeWords (EltTy.packing .f32)

variable [Facts₀]

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131072x256 : Shape := ⟨2, ![131072, 256]⟩
abbrev S_ : Shape := ⟨0, ![]⟩
abbrev S131072 : Shape := ⟨1, ![131072]⟩
abbrev S131072x1 : Shape := ⟨2, ![131072, 1]⟩

abbrev nBuf : Space → Nat
  | .hbm => 6
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S131072x256, .f32⟩
  | .hbm, ⟨3, _⟩ => ⟨S_, .f32⟩
  | .hbm, ⟨4, _⟩ => ⟨S131072, .f32⟩
  | .hbm, ⟨5, _⟩ => ⟨S131072x1, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  reducesTo_S131072x256_S131072_d1 : S131072x256.ReducesTo [1] S131072
  h_S_ : 0 < S_.numel
  bcast_S131072_S131072x1_0 : S131072.BroadcastsInDim S131072x1 (![0] : Fin 1 → Fin S131072x1.rank)

variable [Facts₀]

class Facts : Prop extends Facts₀ where

variable [Facts]
-- ==== Proof.RowDotSpec.lean ====
/-
  The function both programs compute. For two 131072 × 256 arrays `a`, `b` of extended reals the result holds, for each
  row `r`, the row-wise dot product  ∑_{k < 256} a[r, k] · b[r, k]  — as a vector of 131072 entries (`rowDotVec`: what the
  kernel's result array holds) and as a 131072 × 1 column (`rowDotCol`: both programs' result). No algebraic law is needed
  between the two sides: each of them is this very sum, with the summands in the same order, so nothing here asks the
  entries to be finite.
-/
import Idealize.ShloMosaic.PureOps.Ideal
import Idealize.ShloMosaic.Lib.ValueIdx

noncomputable section

namespace Cert.RowDot

open Idealize.ShloMosaic Idealize.ShloMosaic.ValueIdx

/-- Row `r` of `a` dotted with row `r` of `b`. -/
def rowDot (a b : (⟨2, ![131072, 256]⟩ : Shape).Idx → EReal) (r : Fin 131072) : EReal :=
  ∑ k : Fin 256, a (ix2 r k) * b (ix2 r k)

/-- The row-wise dot products as a vector indexed by the row. -/
def rowDotVec (a b : (⟨2, ![131072, 256]⟩ : Shape).Idx → EReal) : (⟨1, ![131072]⟩ : Shape).Idx → EReal :=
  fun i => rowDot a b ⟨(i 0).val, (i 0).isLt⟩

/-- The row-wise dot products as a column: entry (r, 0) is row `r`'s. -/
def rowDotCol (a b : (⟨2, ![131072, 256]⟩ : Shape).Idx → EReal) : (⟨2, ![131072, 1]⟩ : Shape).Idx → EReal :=
  fun i => rowDot a b ⟨(i 0).val, (i 0).isLt⟩

/-- The vector at row `r`. -/
theorem rowDotVec_ix1 (a b : (⟨2, ![131072, 256]⟩ : Shape).Idx → EReal) (r : Fin 131072) :
    rowDotVec a b (ix1 r) = rowDot a b r := rfl

/-- The column at (r, z). -/
theorem rowDotCol_ix2 (a b : (⟨2, ![131072, 256]⟩ : Shape).Idx → EReal) (r : Fin 131072) (z : Fin 1) :
    rowDotCol a b (ix2 r z) = rowDot a b r := rfl

end Cert.RowDot

end
-- ==== Proof.RefRowDot.lean ====
/-
  The reference computes the row-wise dot products: its result column, read entry by entry through the generated
  read-at-an-index lemmas, is  0 + ∑_{k < 256} x0[r, k] · x1[r, k]  at (r, 0) — the elementwise product summed along the
  second axis from the initial value zero, then laid out as a column — and the zero word denotes the extended real 0.
-/
import proofs.«174396_j47725676593222_2_alg».proof.Proof.Gen.ReferenceIdeal.Read
import proofs.«174396_j47725676593222_2_alg».proof.Proof.RowDotSpec
import Idealize.ShloMosaic.PureOps.Ideal.Laws

noncomputable section

namespace Cert.ReferenceIdeal.RowDot

open Cert.ReferenceIdeal Cert.ReferenceIdeal.Gen Idealize.ShloMosaic Idealize.ShloMosaic.ValueIdx Cert.RowDot

/-- The reference's result at (r, z) is row `r`'s dot product. -/
theorem ref_apply (x0 x1 : (⟨S131072x256, .f32⟩ : BufTy).Contents (Elt Ideal)) (r : Fin 131072) (z : Fin 1) :
    Read.val_main_v2 (F := Ideal) x0 x1 (ix2 r z) = rowDot x0 x1 r := by
  rw [Read.val_main_v2_apply, Read.val_main_v1_apply, Read.val_main_cst_apply]
  show Ideal.ofBits .f32 0x00000000#32 + _ = _
  rw [Ideal.ofBits_zero_f32, zero_add]
  unfold rowDot
  refine Finset.sum_congr rfl fun k _ => ?_
  rw [Read.val_main_v0_apply]
  have e : Read.idx_main_v1 (Read.idx_main_v2 (ix2 r z)) k = ix2 r k :=
    funext fun a => Fin.ext (by match a with | ⟨0, _⟩ => rfl | ⟨1, _⟩ => rfl)
  rw [e]
  rfl

/-- So the reference's result column is the specification's. -/
theorem ref_eq (x0 x1 : (⟨S131072x256, .f32⟩ : BufTy).Contents (Elt Ideal)) :
    Read.val_main_v2 (F := Ideal) x0 x1 = rowDotCol x0 x1 := by
  funext i
  obtain ⟨r, z, rfl⟩ : ∃ (r : Fin 131072) (z : Fin 1), i = ix2 r z := ⟨i 0, i 1, eq_ix2 i⟩
  rw [ref_apply, rowDotCol_ix2]

end Cert.ReferenceIdeal.RowDot

end
-- ==== Proof.KernelPayload.lean ====
/-
  What the kernel's body stores, entry by entry. At one grid point the body loads its two 8192 × 256 blocks, multiplies
  them elementwise and sums along the second axis from the zero accumulator; at the extended reals that lane sum is the
  plain finite sum, so entry `p` of the stored vector is  ∑_{k < 256} x0[p, k] · x1[p, k].
-/
import proofs.«174396_j47725676593222_2_alg».proof.Proof.Gen.KernelIdeal.Skeleton
import Idealize.ShloMosaic.PureOps.Ideal.Laws
import Idealize.ShloMosaic.Lib.ValueIdx

noncomputable section

namespace Cert.KernelIdeal.RowDot

open Cert.KernelIdeal Cert.KernelIdeal.Gen Idealize.ShloMosaic Idealize.ShloMosaic.ValueIdx

/-- Entry `p` of the body's stored vector is the dot product of row `p` of its two blocks. -/
theorem pay_apply (x0 x1 : Vec Ideal S8192x256 .f32) (p : Fin 8192) :
    k0_pay1 (F := Ideal) x0 x1 (ix1 p) = ∑ k : Fin 256, x0 (ix2 p k) * x1 (ix2 p k) := by
  unfold k0_pay1
  refine (Ideal.multiReduction_add_single (mulf x0 x1) 0x00000000#32 reduces_S8192x256_S8192 (.inl rfl) rfl (ix1 p)).trans ?_
  refine Finset.sum_congr rfl fun k _ => ?_
  have e : reduces_S8192x256_S8192.lift (ix1 p) k = ix2 p k :=
    funext fun a => Fin.ext (by match a with | ⟨0, _⟩ => rfl | ⟨1, _⟩ => rfl)
  rw [e]
  rfl

end Cert.KernelIdeal.RowDot

end
-- ==== Proof.KernelBlocks.lean ====
/-
  From blocks to the array. The grid has 16 points; at point `t` the two input windows hold rows 8192·t … 8192·t + 8191 of
  the two argument arrays (all 256 columns), and the output window is entries 8192·t … 8192·t + 8191 of the result
  vector. So what point `t` writes back is block `t` of the vector of row-wise dot products of the argument arrays, the 16
  blocks tile the 131072 entries (entry `i` lies in block `i / 8192`), and the result vector after the last point is that
  vector of dot products.
-/
import proofs.«174396_j47725676593222_2_alg».proof.Proof.Gen.KernelIdeal.Frame
import proofs.«174396_j47725676593222_2_alg».proof.Proof.KernelPayload
import proofs.«174396_j47725676593222_2_alg».proof.Proof.RowDotSpec
import Idealize.ShloMosaic.Lib.Pipeline.Value

noncomputable section

namespace Cert.KernelIdeal.RowDot

open Cert.KernelIdeal Cert.KernelIdeal.Gen Idealize.ShloMosaic Idealize.ShloMosaic.TcCoe Idealize.SL.Sem
open Idealize.ShloMosaic.ValueIdx Cert.RowDot
open Idealize.ShloMosaic.Pipeline (Dat)

variable (m : (ℓ : Loc nD τ sig) → Buf (Elt Ideal) ℓ)

theorem zero1 : (![0] : Fin 1 → Nat) = fun _ => 0 := funext fun a => by fin_cases a; rfl
theorem zero2 : (![0, 0] : Fin 2 → Nat) = fun _ => 0 := funext fun a => by fin_cases a <;> rfl

/-- The printed index maps over the grid: at point `t` both input windows sit at block row `t`, block column 0, and the
    output window at block `t`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 1) = t.val :=
  (by decide +kernel : ∀ t : Fin grid0.N, _)

/-- The stored vector of a point whose blocks are rows `8192·b + p` of two arrays `A0`, `A1`: at local entry `j` it is the
    dot product of row `8192·b + j` of the arrays. -/
theorem pay_block (A0 A1 : S131072x256.Idx → EReal) (x0 x1 : Vec Ideal S8192x256 .f32) (b : Nat)
    (h0 : ∀ (p : Fin 8192) (k : Fin 256) (r : Fin 131072), r.val = b * 8192 + p.val → x0 (ix2 p k) = A0 (ix2 r k))
    (h1 : ∀ (p : Fin 8192) (k : Fin 256) (r : Fin 131072), r.val = b * 8192 + p.val → x1 (ix2 p k) = A1 (ix2 r k))
    (j : S8192.Idx) (i : S131072.Idx) (hi : (i 0).val = b * 8192 + (j 0).val) :
    k0_pay1 (F := Ideal) x0 x1 j = rowDotVec A0 A1 i := by
  obtain ⟨p, rfl⟩ : ∃ p : Fin 8192, j = ix1 p := ⟨j 0, eq_ix1 j⟩
  rw [pay_apply]
  unfold rowDotVec rowDot
  refine Finset.sum_congr rfl fun k _ => ?_
  rw [h0 p k ⟨(i 0).val, (i 0).isLt⟩ hi, h1 p k ⟨(i 0).val, (i 0).isLt⟩ hi]

/-- Input window 0's block at point `t`, at (p, k), is the first argument at row `8192·t + p`, column `k`. -/
theorem iblk0_apply (c : Dev nD) (t : Fin cfg0.N) (p : Fin 8192) (k : Fin 256) (r : Fin 131072) (hr : r.val = t.val * 8192 + p.val) :
    (iblk m c 0 t : Vec Ideal S8192x256 .f32) (ix2 p k) = (V m c main_arg0 : S131072x256.Idx → EReal) (ix2 r k) := by
  obtain ⟨e0, e1, e2, e3, e4⟩ := idx_facts t
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 8192 + 1 * p.val = r.val; rw [e0, hr]; omega
  | ⟨1, _⟩ => show win0_0.index t (1 : Fin 2) * 256 + 1 * k.val = k.val; rw [e1]; omega

/-- Input window 1's block at point `t`, at (p, k), is the second argument at row `8192·t + p`, column `k`. -/
theorem iblk1_apply (c : Dev nD) (t : Fin cfg0.N) (p : Fin 8192) (k : Fin 256) (r : Fin 131072) (hr : r.val = t.val * 8192 + p.val) :
    (iblk m c 1 t : Vec Ideal S8192x256 .f32) (ix2 p k) = (V m c main_arg1 : S131072x256.Idx → EReal) (ix2 r k) := by
  obtain ⟨e0, e1, e2, e3, e4⟩ := idx_facts t
  show V m c main_arg1 (((cfg0.win 1).blk t).view.emb (ix2 p k)) = V m c main_arg1 (ix2 r k)
  refine congrArg (V m c main_arg1) (funext fun a => Fin.ext ?_)
  match a with
  | ⟨0, _⟩ => show win0_1.index t (0 : Fin 2) * 8192 + 1 * p.val = r.val; rw [e2, hr]; omega
  | ⟨1, _⟩ => show win0_1.index t (1 : Fin 2) * 256 + 1 * k.val = k.val; rw [e3]; omega

/-- What point `t` writes back is block `t` of the row-wise dot products of the argument arrays. -/
theorem flushed_eq (c : Dev nD) (t : Fin cfg0.N) :
    (dats m 0 c).flushed 2 t = ((cfg0.win 2).blk t).view.read (Elt Ideal) (rowDotVec (V m c main_arg0) (V m c main_arg1)) := by
  show (cfg0.win 2).cut (grid0.coords t) ((dats m 0 c).after 2 t) = _
  rw [after0_2]
  unfold out0_2
  rw [View.canon_unit_zero zero1]
  simp only [View.ld_unit_zero (S := S8192x256) zero2]
  obtain ⟨e0, e1, e2, e3, e4⟩ := idx_facts t
  funext j
  show k0_pay1 (F := Ideal) (iblk m c 0 t) (iblk m c 1 t) j = rowDotVec (V m c main_arg0) (V m c main_arg1) (((cfg0.win 2).blk t).view.emb j)
  refine pay_block (V m c main_arg0) (V m c main_arg1) (iblk m c 0 t) (iblk m c 1 t) t.val
    (iblk0_apply m c t) (iblk1_apply m c t) j (((cfg0.win 2).blk t).view.emb j) ?_
  show win0_2.index t (0 : Fin 1) * 8192 + 1 * (j 0).val = t.val * 8192 + (j 0).val
  rw [e4]; omega

/-- An entry of the result vector is in point `t`'s block iff its coordinate is in the block's range. -/
theorem mem_blk (t : Fin cfg0.N) (i : S131072.Idx) :
    i ∈ ((cfg0.win 2).blk t).view.set ↔ ∀ a : Fin 1, win0_2.index t a * S8192.size a ≤ (i a).val ∧ (i a).val < win0_2.index t a * S8192.size a + S8192.size a := by
  show i ∈ ((View.whole main_v0).slice (win0_2.rect t)).set ↔ _
  rw [View.set_slice_whole, Rect.mem_set_unit]
  exact Iff.rfl

/-- Every entry of the result vector is in some point's block: entry `i` in block `i / 8192`. -/
theorem cover (i : S131072.Idx) : ∃ t : Fin cfg0.N, (cfg0.win 2).flush t = true ∧ i ∈ ((cfg0.win 2).blk t).view.set := by
  have hi : (i 0).val < 131072 := (i 0).isLt
  have hN : cfg0.N = 16 := N_0
  refine ⟨⟨(i 0).val / 8192, by rw [hN]; omega⟩, flush0_2 _, ?_⟩
  rw [mem_blk]
  intro a
  obtain ⟨e0, e1, e2, e3, e4⟩ := idx_facts ⟨(i 0).val / 8192, by rw [hN]; omega⟩
  match a with
  | ⟨0, _⟩ =>
    show win0_2.index _ (0 : Fin 1) * 8192 ≤ (i 0).val ∧ (i 0).val < win0_2.index _ (0 : Fin 1) * 8192 + 8192
    rw [e4]
    show (i 0).val / 8192 * 8192 ≤ (i 0).val ∧ (i 0).val < (i 0).val / 8192 * 8192 + 8192
    omega

/-- The result vector after the last point is the vector of row-wise dot products of the argument arrays. -/
theorem final (c : Dev nD) :
    (dats m 0 c).arrAt 2 cfg0.N = rowDotVec (V m c main_arg0) (V m c main_arg1) :=
  (dats m 0 c).arrAt_eq_of_cover 2 (rowDotVec (V m c main_arg0) (V m c main_arg1)) (fun t _ => flushed_eq m c t) (cover)

end Cert.KernelIdeal.RowDot

end
-- ==== Proof.KernelRun.lean ====
/-
  The kernel's whole program, read. After the one region the result vector holds the row-wise dot products of the two
  arguments; the one host operation after it lays the 131072 entries out as a 131072 × 1 column (entry (r, 0) of the column
  is entry r of the vector: both have row-major position r). So every execution ends with the program's result at the
  column of row-wise dot products, the arguments as launched.
-/
import proofs.«174396_j47725676593222_2_alg».proof.Proof.KernelBlocks
import Idealize.ShloMosaic.Lib.StableHlo.Run

noncomputable section

namespace Cert.KernelIdeal.RowDot

open Cert.KernelIdeal Cert.KernelIdeal.Gen Idealize.ShloMosaic Idealize.ShloMosaic.TcCoe Idealize.SL.Sem
open Idealize.ShloMosaic.ValueIdx Cert.RowDot

variable (m : (ℓ : Loc nD τ sig) → Buf (Elt Ideal) ℓ) (ρ : Dev nD → PrngReg)

/-- A vector of `n` entries laid out as an `n × 1` column reads, at (r, z), the vector's entry `r`. -/
theorem column_apply {α : Type} (v : S131072.Idx → α) (r : Fin 131072) (z : Fin 1) :
    shapeCast S131072x1 v shapeCasts_S131072_S131072x1 (ix2 r z) = v (ix1 r) := by
  refine shapeCast_apply v shapeCasts_S131072_S131072x1 (ix2 r z) (ix1 r) ?_
  rw [Shape.rowMajor_val_one, Shape.rowMajor_val_two]
  show r.val = r.val * 1 + z.val
  omega

/-- The result vector when the region is left: the row-wise dot products of the arguments as launched. -/
theorem exit_vec (c : Dev nD) :
    Pipeline.withArrays (cfgs 0).spec c (V0 m c) (fun w => (dats m 0 c).arrAt w (cfgs 0).N) (Proc.devRef .tc main_v0)
      = rowDotVec (m ((c : Thread nD τ).loc main_arg0)) (m ((c : Thread nD τ).loc main_arg1)) :=
  (Pipeline.withArrays_arr spec0 launch0.win.arr_inj c _ _ 2).trans (final m c)

/-- The program's result after the host line that follows the region: the column of row-wise dot products. -/
theorem result_eq (c : Dev nD) :
    Pipeline.afterTail₀ cfgs (dats m) 0 (V0 m) [hostOps1] c main_v1
      = rowDotCol (m ((c : Thread nD τ).loc main_arg0)) (m ((c : Thread nD τ).loc main_arg1)) := by
  unfold Pipeline.afterTail₀
  show StableHlo.after hostOps1 _ (Proc.devRef .tc main_v1) = _
  after_results
  funext i
  obtain ⟨r, z, rfl⟩ : ∃ (r : Fin 131072) (z : Fin 1), i = ix2 r z := ⟨i 0, i 1, eq_ix2 i⟩
  rw [rowDotCol_ix2]
  show shapeCast S131072x1 (Pipeline.withArrays (cfgs 0).spec c (V0 m c) (fun w => (dats m 0 c).arrAt w (cfgs 0).N)
    (Proc.devRef .tc main_v0)) shapeCasts_S131072_S131072x1 (ix2 r z) = _
  rw [column_apply, exit_vec, rowDotVec_ix1]

/-- Every weakly fair execution of the kernel's program terminates with its result at the column of row-wise dot
    products of the arguments, and the arguments unchanged. -/
theorem run : θ_run defs (onTc (τ := τ) (main (F := Ideal))) ⟨m, fun _ => 0, ρ⟩ fun r => ∀ c : Dev nD,
      r.2.mem ((c.tc : Thread nD τ).loc main_v1) = rowDotCol (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v1 (by decide)).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.RowDot

end
-- ==== Proof.lean ====
/-
  Row-wise dot products of two 131072 × 256 arrays: out[r, 0] = ∑_{k < 256} x1[r, k] · x2[r, k].

  The kernel walks the rows in 16 blocks of 8192: at each grid point it multiplies its two 8192 × 256 blocks elementwise,
  sums each row's 256 products from the zero accumulator and writes the 8192 sums into its block of a vector of 131072
  entries; one host operation then lays that vector out as a 131072 × 1 column. The reference multiplies the whole arrays
  elementwise, sums along the second axis from the initial value zero and lays the sums out as a column. Read at the
  extended reals, entry (r, 0) of either result is the same finite sum of the same 256 products in the same order (the
  zero word denotes 0, which is neutral for + on the extended reals), so the two programs agree on every input; finiteness
  of the inputs is not used. The three frames are the generated frame runs (the reference's is its generated run with the
  result dropped), and the idealized kernel is the kernel's own text read at the extended reals, so nothing is owed for
  the idealization.

  Modules: RowDotSpec (the function), RefRowDot (the reference computes it), KernelPayload (one grid point's stored
  vector, entry by entry), KernelBlocks (the 16 blocks tile the result vector), KernelRun (the host layout step and the
  kernel program's run).
-/
import proofs.«174396_j47725676593222_2_alg».proof.Defs
import proofs.«174396_j47725676593222_2_alg».proof.Proof.Gen.Kernel
import proofs.«174396_j47725676593222_2_alg».proof.Proof.Gen.Kernel.Skeleton
import proofs.«174396_j47725676593222_2_alg».proof.Proof.Gen.Kernel.Launch
import proofs.«174396_j47725676593222_2_alg».proof.Proof.Gen.Kernel.Points
import proofs.«174396_j47725676593222_2_alg».proof.Proof.Gen.Kernel.Frame
import proofs.«174396_j47725676593222_2_alg».proof.Proof.Gen.KernelIdeal
import proofs.«174396_j47725676593222_2_alg».proof.Proof.Gen.KernelIdeal.Skeleton
import proofs.«174396_j47725676593222_2_alg».proof.Proof.Gen.KernelIdeal.Launch
import proofs.«174396_j47725676593222_2_alg».proof.Proof.Gen.KernelIdeal.Points
import proofs.«174396_j47725676593222_2_alg».proof.Proof.Gen.KernelIdeal.Frame
import proofs.«174396_j47725676593222_2_alg».proof.Proof.Gen.ReferenceIdeal
import proofs.«174396_j47725676593222_2_alg».proof.Proof.Gen.Pre_finite_inputs
import proofs.«174396_j47725676593222_2_alg».proof.Proof.Gen.ReferenceIdeal.Run
import proofs.«174396_j47725676593222_2_alg».proof.Proof.Gen.ReferenceIdeal.Read
import proofs.«174396_j47725676593222_2_alg».proof.Proof.RefRowDot
import proofs.«174396_j47725676593222_2_alg».proof.Proof.KernelRun
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference runs and leaves its arguments unchanged: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arguments both programs end with the column of row-wise dot products of those
    arguments: the kernel by its blocks and the layout step, the reference by its sum along the second axis. -/
theorem algebraic : Cert.algebraic_KernelIdeal_ReferenceIdeal := by
  intro m ρ m' ρ' _ hagree
  refine ⟨fun c => Cert.RowDot.rowDotCol (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RowDot.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v2_eq, Cert.ReferenceIdeal.RowDot.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
